-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x11008 : Shape := ⟨2, ![4096, 11008]⟩
abbrev S4096x1 : Shape := ⟨2, ![4096, 1]⟩
abbrev S_ : Shape := ⟨0, ![]⟩

class Facts : Prop where
  bcast_S_S4096x1 : S_.BroadcastsInDim S4096x1 (![] : Fin 0 → Fin S4096x1.rank)
  reducesTo_S4096x1_S_d0_1 : S4096x1.ReducesTo [0, 1] S_
  h_S_ : 0 < S_.numel

variable [Facts]

def fn {F : FTy → Type} [FloatOps F] (main_arg0 : IVec S4096x11008 32) (main_arg1 : FVec F S4096x1 .f32) (main_arg2 : FVec F S4096x1 .f32) : IVec S_ 1 :=
  let main_v0 : FVec F S4096x1 .f32 := Host.absf main_arg1
  let main_cst : FVec F S_ .f32 := constant S_ .f32 0x7F800000#32
  let main_v1 : FVec F S4096x1 .f32 := broadcastInDim S4096x1 ![] bcast_S_S4096x1 main_cst
  let main_v2 : IVec S4096x1 1 := cmpf .olt main_v0 main_v1
  let main_c : IVec S_ 1 := constantI S_ 1 1#1
  let main_v3 : IVec S_ 1 := (fun x v => Host.reduce IntOp.andi x v reducesTo_S4096x1_S_d0_1 h_S_) main_v2 main_c
  let main_v4 : FVec F S4096x1 .f32 := Host.absf main_arg2
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  main_v8
-- ==== Kernel.lean ====
abbrev S4096x11008 : Shape := ⟨2, ![4096, 11008]⟩
abbrev S4096x1 : Shape := ⟨2, ![4096, 1]⟩
abbrev S256x5504 : Shape := ⟨2, ![256, 5504]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S4096x11008, .i32⟩
  | .hbm, ⟨1, _⟩ => ⟨S4096x1, .f32⟩
  | .hbm, ⟨2, _⟩ => ⟨S4096x1, .f32⟩
  | .hbm, ⟨3, _⟩ => ⟨S4096x11008, .f32⟩
  | .local _ .vmem, ⟨0, _⟩ => ⟨S256x5504, .i32⟩
  | .local _ .vmem, ⟨1, _⟩ => ⟨S256x5504, .i32⟩
  | .local _ .vmem, ⟨2, _⟩ => ⟨S256x1, .f32⟩
  | .local _ .vmem, ⟨3, _⟩ => ⟨S256x1, .f32⟩
  | .local _ .vmem, ⟨4, _⟩ => ⟨S256x1, .f32⟩
  | .local _ .vmem, ⟨5, _⟩ => ⟨S256x1, .f32⟩
  | .local _ .vmem, ⟨6, _⟩ => ⟨S256x5504, .f32⟩
  | .local _ .vmem, ⟨7, _⟩ => ⟨S256x5504, .f32⟩
  | _, _ => ⟨S4096x11008, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x5504 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x5504 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S256x5504_S256x5504_0_0 : ∀ a, (![0, 0] : Fin 2 → Nat) a + S256x5504.size a ≤ S256x5504.size a
  h_S256x5504 : 0 < S256x5504.numel
  inb_S256x1_S256x1_0_0 : ∀ a, (![0, 0] : Fin 2 → Nat) a + S256x1.size a ≤ S256x1.size a
  h_S256x1 : 0 < S256x1.numel
  broadcasts_S256x1_S256x5504 : S256x1.Broadcasts S256x5504
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x5504.size a ≤ S4096x11008.size a
  hwx0_0 : ∀ i : grid0.Coords, EltTy.bits .i32 = 32 ∨ (Rect.block (s := S4096x11008) S256x5504.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S4096x1.size a
  hwx0_1 : ∀ i : grid0.Coords, EltTy.bits .f32 = 32 ∨ (Rect.block (s := S4096x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S4096x1.size a
  hwx0_2 : ∀ i : grid0.Coords, EltTy.bits .f32 = 32 ∨ (Rect.block (s := S4096x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x5504.size a ≤ S4096x11008.size a
  hwx0_3 : ∀ i : grid0.Coords, EltTy.bits .f32 = 32 ∨ (Rect.block (s := S4096x11008) S256x5504.size (cc0_transform_3 i) (hinb0_3 i)).WholeWords (EltTy.packing .f32)

variable [Facts₀]

abbrev win0_0 : Pipeline.Window sig grid0 :=
  Pipeline.Window.ofSpec (Memref.whole main_arg0) S256x5504.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x5504.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x11008 : Shape := ⟨2, ![4096, 11008]⟩
abbrev S4096x1 : Shape := ⟨2, ![4096, 1]⟩

abbrev nBuf : Space → Nat
  | .hbm => 8
  | .vmem => 0
  | .smem => 0
  | _ => 0

abbrev bufTy : (tb : Table) → Fin (tcTables nBuf tb) → BufTy
  | .hbm, ⟨0, _⟩ => ⟨S4096x11008, .i32⟩
  | .hbm, ⟨1, _⟩ => ⟨S4096x1, .f32⟩
  | .hbm, ⟨2, _⟩ => ⟨S4096x1, .f32⟩
  | .hbm, ⟨3, _⟩ => ⟨S4096x11008, .f32⟩
  | .hbm, ⟨4, _⟩ => ⟨S4096x11008, .f32⟩
  | .hbm, ⟨5, _⟩ => ⟨S4096x11008, .f32⟩
  | .hbm, ⟨6, _⟩ => ⟨S4096x11008, .f32⟩
  | .hbm, ⟨7, _⟩ => ⟨S4096x11008, .f32⟩
  | _, _ => ⟨S4096x11008, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S4096x1_S4096x11008_0_1 : S4096x1.BroadcastsInDim S4096x11008 (![0, 1] : Fin 2 → Fin S4096x11008.rank)

variable [Facts₀]

class Facts : Prop extends Facts₀ where

variable [Facts]
-- ==== Proof.Spec.lean ====
/-
  Asymmetric dequantization of a weight matrix, as ONE function of the three argument arrays.

  The weights are integers `w[r, c]` (4096 output channels by 11008 input features); every output channel `r` has its own
  zero point `z[r, 0]` and its own scale `s[r, 0]`, each stored as a column of height 4096. The dequantized weight is

      deq[r, c] = (float(w[r, c]) - z[r, 0]) * s[r, 0].

  Both programs of this certificate compute exactly this expression with exactly these three operations (the signed integer
  read as a float, one subtraction, one product), so the statement below is the common value of the two: no algebraic law
  of the extended reals is needed to join them, and nothing here depends on the inputs being finite.
-/
import Idealize.ShloMosaic.PureOps.Ideal
import Idealize.ShloMosaic.Lib.ValueIdx

noncomputable section

namespace Cert.Dequant

open Idealize.ShloMosaic

variable {F : FTy → Type} [FloatOps F]

/-- The shape of the weight matrix and of the result: 4096 output channels by 11008 input features. -/
abbrev Wt : Shape := ⟨2, ![4096, 11008]⟩

/-- The shape of a per-channel column (the scales, the zero points): one entry per output channel. -/
abbrev Col : Shape := ⟨2, ![4096, 1]⟩

/-- The entry of a per-channel column that the matrix entry `(r, c)` uses: `(r, 0)`, whatever the column `c`. -/
abbrev chan (i : Wt.Idx) : Col.Idx := fun a => match a with
  | ⟨0, _⟩ => ⟨(i 0).val, (i 0).isLt⟩
  | ⟨1, _⟩ => ⟨0, Nat.one_pos⟩

/-- THE DEQUANTIZED MATRIX: at `(r, c)`, the weight read as a float, minus its channel's zero point, times its channel's
    scale. -/
def dequant (w : Vec F Wt .i32) (scale zp : Vec F Col .f32) : Vec F Wt .f32 :=
  fun i => FloatOps.mulf (FloatOps.subf (FloatOps.sitofp .f32 (w i)) (zp (chan i))) (scale (chan i))

/-- The dequantized matrix read at an entry. -/
theorem dequant_apply (w : Vec F Wt .i32) (scale zp : Vec F Col .f32) (i : Wt.Idx) :
    dequant w scale zp i = FloatOps.mulf (FloatOps.subf (FloatOps.sitofp .f32 (w i)) (zp (chan i))) (scale (chan i)) := rfl

end Cert.Dequant

end
-- ==== Proof.KernelArray.lean ====
/-
  From blocks to the array: after the kernel's run the result array IS the dequantized matrix of the argument arrays.

  The kernel walks a 16 x 2 grid. At the point `(p, q)` it reads the 256 x 5504 block `(p, q)` of the weights and the
  256 x 1 blocks `(p, 0)` of the scales and of the zero points, and writes the 256 x 5504 block `(p, q)` of the result.
  Entry `(a, b)` of that block is therefore entry `(256 p + a, 5504 q + b)` of the matrix, and it is computed from the
  weight at the same place and from the channel entries `(256 p + a, 0)`: that is the dequantized matrix read through the
  block (`written_back`). The 32 blocks tile the 4096 x 11008 matrix — the entry `(r, c)` lies in the block
  `(r / 256, c / 5504)` — so every entry is written by some point (`covered`), and the array ends holding the dequantized
  matrix (`result_array`, `run`).
-/
import proofs.«119105_j29274497089862_2_alg».proof.Proof.KernelIdealValue
import proofs.«119105_j29274497089862_2_alg».proof.Proof.Spec

noncomputable section

namespace Cert.KernelIdeal.Array

open Cert.KernelIdeal Cert.KernelIdeal.Gen Idealize.ShloMosaic Idealize.ShloMosaic.TcCoe Idealize.SL.Sem
open Idealize.ShloMosaic.Pipeline (Dat)
open Cert.Dequant

variable {F : FTy → Type} [FloatOps F]
variable (m : (ℓ : Loc nD τ sig) → Buf (Elt F) ℓ) (ρ : Dev nD → PrngReg)

/-- The body's accesses all start at the origin of their buffers. -/
theorem origin : (![0, 0] : Fin 2 → Nat) = fun _ => 0 := funext fun a => by fin_cases a <;> rfl

/-- The block indices of the four windows at a grid point, decided over the 32 points: the weights' block moves with the
    result's block on both axes; the scales' and the zero points' blocks follow its row of blocks and stay in block
    column 0; the result's block indices range over 16 rows of blocks and 2 columns of blocks. -/
theorem block_indices : ∀ t : Fin cfg0.N,
    win0_0.index t (0 : Fin 2) = win0_3.index t (0 : Fin 2)
    ∧ win0_0.index t (1 : Fin 2) = win0_3.index t (1 : Fin 2)
    ∧ win0_1.index t (0 : Fin 2) = win0_3.index t (0 : Fin 2)
    ∧ win0_1.index t (1 : Fin 2) = 0
    ∧ win0_2.index t (0 : Fin 2) = win0_3.index t (0 : Fin 2)
    ∧ win0_2.index t (1 : Fin 2) = 0
    ∧ win0_3.index t (0 : Fin 2) ≤ 15
    ∧ win0_3.index t (1 : Fin 2) ≤ 1 :=
  (by decide +kernel : ∀ t : Fin grid0.N, _)

/-- Every one of the 16 x 2 blocks of the result is some grid point's. -/
theorem block_of_point : ∀ (p : Fin 16) (q : Fin 2), ∃ t : Fin cfg0.N, win0_3.index t = ![p.val, q.val] :=
  (by decide +kernel : ∀ (p : Fin 16) (q : Fin 2), ∃ t : Fin grid0.N, win0_3.index t = ![p.val, q.val])

/-- WHAT THE BODY LEAVES in the output block, entry by entry, from the three blocks it loads (weights `x0`, scales `x1`,
    zero points `x2`): at `(a, b)` the weight at `(a, b)` read as a float, minus the zero point at `(a, 0)`, times the
    scale at `(a, 0)` — the body's one store covers the block, and its payload is this expression at every entry. -/
theorem body_entry (x0 : Vec F S256x5504 .i32) (x1 x2 : Vec F S256x1 .f32) :
    out0_3 x0 x1 x2 = fun y => FloatOps.mulf (FloatOps.subf (FloatOps.sitofp .f32 (x0 (ValueP.ix3_0 y))) (x2 (ValueP.ix3_1 y)))
      (x1 (ValueP.ix3_2 y)) := by
  funext y
  unfold out0_3
  simp only [View.ld_unit_zero (S := S256x5504) origin, View.ld_unit_zero (S := S256x1) origin]
  exact ValueP.canon3_eq x0 x2 x1 y

/-- WHAT POINT `t` WRITES BACK is block `t` of the dequantized matrix of the argument arrays: entry `(a, b)` of the block
    is computed from the weight at the matrix entry under it and from that entry's channel (its row, column 0). -/
theorem written_back (c : Dev nD) (t : Fin cfg0.N) :
    (dats m 0 c).flushed 3 t
      = ((cfg0.win 3).blk t).view.read (Elt F) (dequant (V m c main_arg0) (V m c main_arg1) (V m c main_arg2)) := by
  rw [ValueP.flushed3, body_entry]
  obtain ⟨e0, e1, e2, e3, e4, e5, -, -⟩ := block_indices t
  funext j
  show FloatOps.mulf (FloatOps.subf (FloatOps.sitofp .f32 (V m c main_arg0 (((cfg0.win 0).blk t).view.emb (ValueP.ix3_0 j))))
        (V m c main_arg2 (((cfg0.win 2).blk t).view.emb (ValueP.ix3_1 j))))
      (V m c main_arg1 (((cfg0.win 1).blk t).view.emb (ValueP.ix3_2 j)))
    = FloatOps.mulf (FloatOps.subf (FloatOps.sitofp .f32 (V m c main_arg0 (((cfg0.win 3).blk t).view.emb j)))
        (V m c main_arg2 (chan (((cfg0.win 3).blk t).view.emb j))))
      (V m c main_arg1 (chan (((cfg0.win 3).blk t).view.emb j)))
  -- the weight under entry `j` of the block: the same matrix entry through the weights' window as through the result's
  have hw : ((cfg0.win 0).blk t).view.emb (ValueP.ix3_0 j) = ((cfg0.win 3).blk t).view.emb j := by
    funext a; apply Fin.ext
    match a with
    | ⟨0, _⟩ => show win0_0.index t (0 : Fin 2) * 256 + 1 * (j 0).val = win0_3.index t (0 : Fin 2) * 256 + 1 * (j 0).val; omega
    | ⟨1, _⟩ => show win0_0.index t (1 : Fin 2) * 5504 + 1 * (j 1).val = win0_3.index t (1 : Fin 2) * 5504 + 1 * (j 1).val; omega
  -- the zero point under it: row `j 0` of the channel block, which is the channel of the matrix entry
  have hz : ((cfg0.win 2).blk t).view.emb (ValueP.ix3_1 j) = chan (((cfg0.win 3).blk t).view.emb j) := by
    funext a; apply Fin.ext
    match a with
    | ⟨0, _⟩ => show win0_2.index t (0 : Fin 2) * 256 + 1 * (j 0).val = win0_3.index t (0 : Fin 2) * 256 + 1 * (j 0).val; omega
    | ⟨1, _⟩ => show win0_2.index t (1 : Fin 2) * 1 + 1 * 0 = 0; omega
  -- the scale under it, in the same way
  have hs : ((cfg0.win 1).blk t).view.emb (ValueP.ix3_2 j) = chan (((cfg0.win 3).blk t).view.emb j) := by
    funext a; apply Fin.ext
    match a with
    | ⟨0, _⟩ => show win0_1.index t (0 : Fin 2) * 256 + 1 * (j 0).val = win0_3.index t (0 : Fin 2) * 256 + 1 * (j 0).val; omega
    | ⟨1, _⟩ => show win0_1.index t (1 : Fin 2) * 1 + 1 * 0 = 0; omega
  rw [hw, hz, hs]

/-- A matrix entry is in point `t`'s block iff each of its coordinates lies in the block's range on that axis. -/
theorem mem_block (t : Fin cfg0.N) (i : S4096x11008.Idx) :
    i ∈ ((cfg0.win 3).blk t).view.set ↔ ∀ a : Fin 2, win0_3.index t a * S256x5504.size a ≤ (i a).val
      ∧ (i a).val < win0_3.index t a * S256x5504.size a + S256x5504.size a := by
  show i ∈ ((View.whole main_v0).slice (win0_3.rect t)).set ↔ _
  rw [View.set_slice_whole, Rect.mem_set_unit]
  exact Iff.rfl

/-- EVERY ENTRY IS WRITTEN: the matrix entry `(r, c)` lies in the block `(r / 256, c / 5504)`, which is some grid point's,
    and every point writes its block back. -/
theorem covered (i : S4096x11008.Idx) :
    ∃ t : Fin cfg0.N, (cfg0.win 3).flush t = true ∧ i ∈ ((cfg0.win 3).blk t).view.set := by
  have hi0 : (i 0).val < 4096 := (i 0).isLt
  have hi1 : (i 1).val < 11008 := (i 1).isLt
  obtain ⟨t, ht⟩ := block_of_point ⟨(i 0).val / 256, by omega⟩ ⟨(i 1).val / 5504, by omega⟩
  have q0 : win0_3.index t (0 : Fin 2) = (i 0).val / 256 := congrFun ht 0
  have q1 : win0_3.index t (1 : Fin 2) = (i 1).val / 5504 := congrFun ht 1
  refine ⟨t, flush0_3 t, ?_⟩
  rw [mem_block]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 5504 ≤ (i 1).val ∧ (i 1).val < win0_3.index t (1 : Fin 2) * 5504 + 5504; omega

/-- THE RESULT ARRAY after the run is the dequantized matrix of the argument arrays as launched: every point writes its
    block of it (`written_back`) and the blocks cover the matrix (`covered`). -/
theorem result_array (c : Dev nD) :
    (dats m 0 c).arrAt 3 cfg0.N
      = dequant (m ((c : Thread nD τ).loc main_arg0)) (m ((c : Thread nD τ).loc main_arg1)) (m ((c : Thread nD τ).loc main_arg2)) :=
  (dats m 0 c).arrAt_eq_of_cover 3 _ (fun t _ => written_back m c t) covered

/-- THE KERNEL'S RUN: every weakly fair execution terminates, nothing faulting, with the result array at the dequantized
    matrix of the arguments and the arguments unchanged. -/
theorem run : θ_run defs (onTc (τ := τ) (main (F := F))) ⟨m, fun _ => 0, ρ⟩ fun r => ∀ c : Dev nD,
      r.2.mem ((c : Thread nD τ).loc main_v0)
        = dequant (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result_array m c), (h c).2⟩) (ValueP.run_blocks m ρ)

end Cert.KernelIdeal.Array

end
-- ==== Proof.RefArray.lean ====
/-
  The reference computes the dequantized matrix.

  The reference is five whole-array operations: the weights read as floats; the zero points' column repeated along the
  11008 features; their difference; the scales' column repeated the same way; the product. Read at an entry `(r, c)`, a
  repeated column gives its entry `(r, 0)`, so the last stage at `(r, c)` is `(float(w[r, c]) - z[r, 0]) * s[r, 0]`: the
  dequantized matrix of the specification, with no rearrangement.
-/
import proofs.«119105_j29274497089862_2_alg».proof.Proof.Gen.ReferenceIdeal.Read
import proofs.«119105_j29274497089862_2_alg».proof.Proof.Spec

noncomputable section

namespace Cert.ReferenceIdeal.Array

open Cert.ReferenceIdeal Cert.ReferenceIdeal.Gen Idealize.ShloMosaic Idealize.ShloMosaic.TcCoe Idealize.SL.Sem
open Cert.Dequant

variable {F : FTy → Type} [FloatOps F]

/-- The reference's last stage is the dequantized matrix of its arguments (weights, scales, zero points): entry by
    entry, each repeated column is read at the entry's channel. -/
theorem last_stage (x0 : (⟨S4096x11008, .i32⟩ : BufTy).Contents (Elt F)) (x1 x2 : (⟨S4096x1, .f32⟩ : BufTy).Contents (Elt F)) :
    Read.val_main_v4 (F := F) x0 x1 x2 = dequant (F := F) x0 x1 x2 := by
  funext i
  rw [Read.val_main_v4_apply, Read.val_main_v2_apply, Read.val_main_v0_apply, Read.val_main_v1_apply,
    Read.val_main_v3_apply]
  rfl

end Cert.ReferenceIdeal.Array

end
-- ==== Proof.lean ====
/-
  Asymmetric weight dequantization: the tiled kernel against the whole-array reference.

  The arguments are an integer weight matrix `w` (4096 output channels by 11008 input features) and, per output
  channel, a scale `s[r, 0]` and a zero point `z[r, 0]` (two columns of height 4096). Both programs return

      deq[r, c] = (float(w[r, c]) - z[r, 0]) * s[r, 0].

  The kernel walks a 16 x 2 grid of 256 x 5504 blocks; at each point it reads a block of weights and the matching 256
  rows of the two columns, repeats each column entry along its row, subtracts and multiplies, and writes the block back.
  The reference does the same on the whole arrays. Read at an entry, both are the expression above with the same three
  operations in the same order, so on the extended reals the two results are equal with no algebraic law between them,
  and the precondition (finite scales and zero points) is never used.

  * `Proof/Spec.lean`: the dequantized matrix as one function of the three argument arrays.
  * `Proof/KernelIdealValue.lean`: the kernel's run with its result array named, what a point writes back, and the
    body's block entry by entry.
  * `Proof/KernelArray.lean`: each point writes its block of the dequantized matrix; the blocks tile the matrix; so the
    kernel's result array is the dequantized matrix.
  * `Proof/RefArray.lean`: the reference's last stage is the dequantized matrix.
  * here: the three frames (every execution terminates without a fault and leaves the arguments unchanged), the empty
    idealization ledger, and the equality of the two results.
-/
import proofs.«119105_j29274497089862_2_alg».proof.Defs
import proofs.«119105_j29274497089862_2_alg».proof.Proof.Gen.Kernel
import proofs.«119105_j29274497089862_2_alg».proof.Proof.Gen.Kernel.Skeleton
import proofs.«119105_j29274497089862_2_alg».proof.Proof.Gen.Kernel.Launch
import proofs.«119105_j29274497089862_2_alg».proof.Proof.Gen.Kernel.Points
import proofs.«119105_j29274497089862_2_alg».proof.Proof.Gen.Kernel.Frame
import proofs.«119105_j29274497089862_2_alg».proof.Proof.Gen.KernelIdeal
import proofs.«119105_j29274497089862_2_alg».proof.Proof.Gen.KernelIdeal.Skeleton
import proofs.«119105_j29274497089862_2_alg».proof.Proof.Gen.KernelIdeal.Launch
import proofs.«119105_j29274497089862_2_alg».proof.Proof.Gen.KernelIdeal.Points
import proofs.«119105_j29274497089862_2_alg».proof.Proof.Gen.KernelIdeal.Frame
import proofs.«119105_j29274497089862_2_alg».proof.Proof.Gen.ReferenceIdeal
import proofs.«119105_j29274497089862_2_alg».proof.Proof.Gen.Pre_finite_inputs
import proofs.«119105_j29274497089862_2_alg».proof.Proof.Gen.ReferenceIdeal.Run
import proofs.«119105_j29274497089862_2_alg».proof.Proof.Gen.ReferenceIdeal.Read
import proofs.«119105_j29274497089862_2_alg».proof.Proof.KernelIdealValue
import proofs.«119105_j29274497089862_2_alg».proof.Proof.Spec
import proofs.«119105_j29274497089862_2_alg».proof.Proof.KernelArray
import proofs.«119105_j29274497089862_2_alg».proof.Proof.RefArray
import Idealize.ShloMosaic.Adequacy
import Idealize.ShloMosaic.Init

noncomputable section

namespace Cert.Proof

open Idealize.ShloMosaic Idealize.ShloMosaic.TcCoe Idealize.SL.Sem

/-- The word-level kernel runs to the end without a fault and leaves its three arguments as launched. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation of the kernel: there is nothing to restate. -/
theorem preserves : Cert.preserves_Kernel_KernelIdeal := trivial

/-- On the extended reals, from memories that agree on the three arguments, the kernel's result array and the
    reference's are the same array: each is the dequantized matrix of the arguments. -/
theorem algebraic : Cert.algebraic_KernelIdeal_ReferenceIdeal := by
  intro m ρ m' ρ' _ hagree
  refine ⟨_, Cert.KernelIdeal.Array.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v4_eq]
  exact Cert.ReferenceIdeal.Array.last_stage _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
